-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x16x256 : Shape := ⟨3, ![10000, 16, 256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x16x256 : S_.BroadcastsInDim S10000x16x256 (![] : Fin 0 → Fin S10000x16x256.rank)
  reducesTo_S10000x16x256_S_d0_1_2 : S10000x16x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S10000x256 .f32) (main_arg1 : FVec F S10000x16x256 .f32) (main_arg2 : FVec F S256x256 .f32) (main_arg3 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x16x256 .f32 := Host.absf main_arg1
  let main_cst_0 : FVec F S_ .f32 := constant S_ .f32 0x7F800000#32
  let main_v5 : FVec F S10000x16x256 .f32 := broadcastInDim S10000x16x256 ![] bcast_S_S10000x16x256 main_cst_0
  let main_v6 : IVec S10000x16x256 1 := cmpf .olt main_v4 main_v5
  let main_c_1 : IVec S_ 1 := constantI S_ 1 1#1
  let main_v7 : IVec S_ 1 := (fun x v => Host.reduce IntOp.andi x v reducesTo_S10000x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S10000x256 : Shape := ⟨2, ![10000, 256]⟩
abbrev S10000x16x256 : Shape := ⟨3, ![10000, 16, 256]⟩
abbrev S256x256 : Shape := ⟨2, ![256, 256]⟩
abbrev S1000x16x256 : Shape := ⟨3, ![1000, 16, 256]⟩
abbrev S1000x256 : Shape := ⟨2, ![1000, 256]⟩

abbrev nBuf : Space → Nat
  | .hbm => 5
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S10000x16x256, .f32⟩
  | .hbm, ⟨2, _⟩ => ⟨S256x256, .f32⟩
  | .hbm, ⟨3, _⟩ => ⟨S256x256, .f32⟩
  | .hbm, ⟨4, _⟩ => ⟨S10000x256, .f32⟩
  | .local _ .vmem, ⟨0, _⟩ => ⟨S1000x16x256, .f32⟩
  | .local _ .vmem, ⟨1, _⟩ => ⟨S1000x16x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S256x256, .f32⟩
  | .local _ .vmem, ⟨6, _⟩ => ⟨S1000x256, .f32⟩
  | .local _ .vmem, ⟨7, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1000x16x256_S1000x16x256_0_0_0 : ∀ a, (![0, 0, 0] : Fin 3 → Nat) a + S1000x16x256.size a ≤ S1000x16x256.size a
  h_S1000x16x256 : 0 < S1000x16x256.numel
  reduces_S1000x16x256_S1000x256 : S1000x16x256.Reduces [1] S1000x256
  inb_S256x256_S256x256_0_0 : ∀ a, (![0, 0] : Fin 2 → Nat) a + S256x256.size a ≤ S256x256.size a
  h_S256x256 : 0 < S256x256.numel
  inb_S1000x256_S1000x256_0_0 : ∀ a, (![0, 0] : Fin 2 → Nat) a + S1000x256.size a ≤ S1000x256.size a
  h_S1000x256 : 0 < S1000x256.numel
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x256.size a ≤ S10000x16x256.size a
  hwx0_0 : ∀ i : grid0.Coords, EltTy.bits .f32 = 32 ∨ (Rect.block (s := S10000x16x256) S1000x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S10000x256.size a
  hwx0_1 : ∀ i : grid0.Coords, EltTy.bits .f32 = 32 ∨ (Rect.block (s := S10000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S10000x256.size a
  hwx0_4 : ∀ i : grid0.Coords, EltTy.bits .f32 = 32 ∨ (Rect.block (s := S10000x256) S1000x256.size (cc0_transform_4 i) (hinb0_4 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg1) S1000x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x16x256 : Shape := ⟨3, ![10000, 16, 256]⟩
abbrev S256x256 : Shape := ⟨2, ![256, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x16x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S10000x256, .f32⟩
  | .hbm, ⟨6, _⟩ => ⟨S_, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  reducesTo_S10000x16x256_S10000x256_d1 : S10000x16x256.ReducesTo [1] S10000x256
  h_S_ : 0 < S_.numel
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.BlockValue.lean ====
/-
  What one grid point's body stores, entry by entry.  The body loads a block of a thousand nodes: their
  neighbour rows `nb` ([1000, 16, 256]), their own rows `sf` ([1000, 256]) and the two weight matrices `wa`,
  `ws` ([256, 256]); it sums `nb` over the neighbour axis, scales by a sixteenth, multiplies by `wa` on the
  matrix unit, adds the product of `sf` and `ws`, and clamps at zero.  At the ideal values a lane sum over one
  axis is the finite sum over that axis, and a matrix product into a zero accumulator is the sum over the one
  contracted coordinate, so at row `p`, column `q` of the block the stored value is

      max( Σ_k ((Σ_d nb[p, d, k]) · 1/16) · wa[k, q]  +  Σ_k sf[p, k] · ws[k, q] , 0 ).
-/
import proofs.«162094_g71485435674875_cont_sun_c4_294_2_alg».proof.Proof.Gen.KernelIdeal.Skeleton
import Idealize.ShloMosaic.PureOps.Ideal.Laws
import Idealize.ShloMosaic.Lib.ValueIdx

noncomputable section

namespace Cert.Sage.Block

open Cert.KernelIdeal Cert.KernelIdeal.Gen
open Idealize.ShloMosaic Idealize.ShloMosaic.ValueIdx

/-- The lane sum over the neighbour axis, at node `p` and feature `k`: the sum of the sixteen neighbour rows'
    entries there. -/
theorem neighbour_sum (nb : FVec Ideal S1000x16x256 .f32) (h : S1000x16x256.Reduces [1] S1000x256)
    (hφ : FKind.Formats .f32) (hacc : (0x00000000#32 : BitVec 32) = FKind.add.neutral .f32 hφ) (p : Fin 1000) (k : Fin 256) :
    multiReduction (F := Ideal) .add [1] S1000x256 nb 0x00000000#32 h hφ hacc
        (ix2 (n0 := 1000) (n1 := 256) p k)
      = ∑ d : Fin 16, nb (ix3 (n0 := 1000) (n1 := 16) (n2 := 256) p d k) := by
  refine (Ideal.multiReduction_add_single nb 0x00000000#32 h hφ hacc _).trans ?_
  refine Finset.sum_congr rfl fun d _ => congrArg nb (funext fun a => Fin.ext ?_)
  match a with
  | ⟨0, _⟩ => rfl
  | ⟨1, _⟩ => rfl
  | ⟨2, _⟩ => rfl

/-- The left operand's row at an output index is the output's row, -/
theorem lhs_row (i : S1000x256.Idx) (κ : dot_S1000x256_S256x256_S1000x256_1_0_0_1_n_n.contr.Idx) :
    (dot_S1000x256_S256x256_S1000x256_1_0_0_1_n_n.lhsIdx i κ 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl
/-- and its column is the contracted coordinate. -/
theorem lhs_col (i : S1000x256.Idx) (κ : dot_S1000x256_S256x256_S1000x256_1_0_0_1_n_n.contr.Idx) :
    (dot_S1000x256_S256x256_S1000x256_1_0_0_1_n_n.lhsIdx i κ 1).val = (κ ⟨0, by decide⟩).val :=
  dot_S1000x256_S256x256_S1000x256_1_0_0_1_n_n.lhsIdx_val_of_single rfl i κ
/-- The right operand's row is the contracted coordinate, -/
theorem rhs_row (i : S1000x256.Idx) (κ : dot_S1000x256_S256x256_S1000x256_1_0_0_1_n_n.contr.Idx) :
    (dot_S1000x256_S256x256_S1000x256_1_0_0_1_n_n.rhsIdx i κ 0).val = (κ ⟨0, by decide⟩).val :=
  dot_S1000x256_S256x256_S1000x256_1_0_0_1_n_n.rhsIdx_val_of_single rfl i κ
/-- and its column is the output's column. -/
theorem rhs_col (i : S1000x256.Idx) (κ : dot_S1000x256_S256x256_S1000x256_1_0_0_1_n_n.contr.Idx) :
    (dot_S1000x256_S256x256_S1000x256_1_0_0_1_n_n.rhsIdx i κ 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-- So at output row `p` and contraction coordinate `k` the left operand is read at row `p`, column `k`. -/
theorem lhs_index (p : Fin 1000) (q : Fin 256) (k : Fin 256) :
    dot_S1000x256_S256x256_S1000x256_1_0_0_1_n_n.lhsIdx (ix2 (n0 := 1000) (n1 := 256) p q)
        ((contrEquiv1 dot_S1000x256_S256x256_S1000x256_1_0_0_1_n_n 256 rfl rfl).symm k)
      = ix2 (n0 := 1000) (n1 := 256) p k := by
  have hk := contrEquiv1_symm_val dot_S1000x256_S256x256_S1000x256_1_0_0_1_n_n 256 rfl rfl k
  refine funext fun a => Fin.ext ?_
  match a with
  | ⟨0, _⟩ => exact lhs_row _ _
  | ⟨1, _⟩ => exact (lhs_col _ _).trans hk

/-- and at output column `q` the right operand is read at row `k`, column `q`. -/
theorem rhs_index (p : Fin 1000) (q : Fin 256) (k : Fin 256) :
    dot_S1000x256_S256x256_S1000x256_1_0_0_1_n_n.rhsIdx (ix2 (n0 := 1000) (n1 := 256) p q)
        ((contrEquiv1 dot_S1000x256_S256x256_S1000x256_1_0_0_1_n_n 256 rfl rfl).symm k)
      = ix2 (n0 := 256) (n1 := 256) k q := by
  have hk := contrEquiv1_symm_val dot_S1000x256_S256x256_S1000x256_1_0_0_1_n_n 256 rfl rfl k
  refine funext fun a => Fin.ext ?_
  match a with
  | ⟨0, _⟩ => exact (rhs_row _ _).trans hk
  | ⟨1, _⟩ => exact rhs_col _ _

/-- A [1000, 256] by [256, 256] product into a zero accumulator, at row `p`, column `q`: the sum over the
    contracted coordinate of the products. -/
theorem product_at (l : FVec Ideal S1000x256 .f32) (r : FVec Ideal S256x256 .f32) (p : Fin 1000) (q : Fin 256) :
    matmul (F := Ideal) dot_S1000x256_S256x256_S1000x256_1_0_0_1_n_n none l r (constant S1000x256 .f32 0x00000000#32) (ix2 (n0 := 1000) (n1 := 256) p q)
      = ∑ k : Fin 256, l (ix2 (n0 := 1000) (n1 := 256) p k) * r (ix2 (n0 := 256) (n1 := 256) k q) := by
  refine (Ideal.matmul_constant_zero_apply dot_S1000x256_S256x256_S1000x256_1_0_0_1_n_n none l r _).trans ?_
  rw [← Equiv.sum_comp (contrEquiv1 dot_S1000x256_S256x256_S1000x256_1_0_0_1_n_n 256 rfl rfl).symm]
  refine Finset.sum_congr rfl fun k _ => ?_
  rw [lhs_index, rhs_index]

/-- The stored value at row `p`, column `q` of the block. -/
theorem stored_at (nb : Vec Ideal S1000x16x256 .f32) (wa : Vec Ideal S256x256 .f32) (sf : Vec Ideal S1000x256 .f32)
    (ws : Vec Ideal S256x256 .f32) (p : Fin 1000) (q : Fin 256) :
    k0_pay1 (F := Ideal) nb wa sf ws (ix2 (n0 := 1000) (n1 := 256) p q)
      = max ((∑ k : Fin 256, ((∑ d : Fin 16, nb (ix3 (n0 := 1000) (n1 := 16) (n2 := 256) p d k))
              * Ideal.ofBits .f32 0x3D800000#32) * wa (ix2 (n0 := 256) (n1 := 256) k q))
          + ∑ k : Fin 256, sf (ix2 (n0 := 1000) (n1 := 256) p k) * ws (ix2 (n0 := 256) (n1 := 256) k q)) 0 := by
  unfold k0_pay1
  refine (maximumf_apply _ _ _).trans ?_
  refine congrArg₂ max ?_ Ideal.ofBits_zero_f32
  refine (addf_apply _ _ _).trans (congrArg₂ (· + ·) ?_ (product_at sf ws p q))
  refine (product_at _ wa p q).trans (Finset.sum_congr rfl fun k _ => congrArg (· * wa (ix2 k q)) ?_)
  refine (mulf_apply _ _ _).trans (congrArg (· * Ideal.ofBits .f32 0x3D800000#32) ?_)
  exact neighbour_sum nb _ _ _ p k

end Cert.Sage.Block

end
-- ==== Proof.Spec.lean ====
/-
  The layer both programs compute, as one function of the four argument arrays, entry by entry on the
  extended reals.  For node `n` and output column `j`

      out[n, j] = max( Σ_k ((Σ_d neigh[n, d, k]) · 1/16) · wa[k, j]  +  Σ_k src[n, k] · ws[k, j] , 0 ).

  The inner sum over the sixteen sampled neighbours, scaled by a sixteenth, is the neighbourhood mean; it is
  projected by `wa`, the node's own features are projected by `ws`, the two are added and clamped at zero.
  The sixteenth is the exact dyadic `2⁻⁴`, so multiplying by it and dividing by sixteen are one function on
  every extended real, the infinities included (`div_sixteen`); nothing here needs the inputs finite.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The f32 word `0x41800000` denotes the real sixteen. -/
theorem ofBits_sixteen : Ideal.ofBits .f32 0x41800000#32 = ((16 : ℝ) : EReal) := by
  simp [Ideal.ofBits, Ideal.ieee, -EReal.coe_mul]; norm_num

/-- The f32 word `0x3D800000` denotes the real one sixteenth. -/
theorem ofBits_sixteenth : Ideal.ofBits .f32 0x3D800000#32 = ((1 / 16 : ℝ) : EReal) := by
  simp [Ideal.ofBits, Ideal.ieee, -EReal.coe_mul]; norm_num

/-- Dividing an extended real by sixteen is multiplying it by a sixteenth: the divisor is a nonzero real, so
    the quotient is the product with its inverse, at the infinities too. -/
theorem div_sixteen (x : EReal) :
    Ideal.div x (Ideal.ofBits .f32 0x41800000#32) = x * Ideal.ofBits .f32 0x3D800000#32 := by
  rw [ofBits_sixteen, ofBits_sixteenth, Ideal.div_coe (by norm_num)]

/-- One entry of the layer's result: the mean of node `n`'s sixteen neighbour rows projected by `wa`, plus
    the node's own row projected by `ws`, clamped below at zero. -/
def layer (src : (⟨2, ![10000, 256]⟩ : Shape).Idx → EReal) (neigh : (⟨3, ![10000, 16, 256]⟩ : Shape).Idx → EReal)
    (wa ws : (⟨2, ![256, 256]⟩ : Shape).Idx → EReal) (n : Fin 10000) (j : Fin 256) : EReal :=
  max ((∑ k : Fin 256, ((∑ d : Fin 16, neigh (ix3 n d k)) * Ideal.ofBits .f32 0x3D800000#32) * wa (ix2 k j))
      + ∑ k : Fin 256, src (ix2 n k) * ws (ix2 k j)) 0

/-- The whole result array: `layer` at the two coordinates of the index. -/
def layerArr (src : (⟨2, ![10000, 256]⟩ : Shape).Idx → EReal) (neigh : (⟨3, ![10000, 16, 256]⟩ : Shape).Idx → EReal)
    (wa ws : (⟨2, ![256, 256]⟩ : Shape).Idx → EReal) : (⟨2, ![10000, 256]⟩ : Shape).Idx → EReal :=
  fun i => layer src neigh wa ws (i 0) (i 1)

end Cert.Sage

end
-- ==== Proof.KernelLayer.lean ====
/-
  The kernel's result array is the layer's.  The grid has ten points; point `t` works on nodes
  `1000·t … 1000·t + 999`: its neighbour block and its feature block are rows `1000·t + p` of the two node arrays,
  the two weight matrices are fetched whole, and it writes rows `1000·t + p` of the result.  So what point `t`
  writes back at row `p`, column `q` is the layer at node `1000·t + p`, column `q` (`written_back`); the ten
  row blocks tile the result array, node `n` lying in block `n / 1000` (`covered`); hence the array after the run
  is the layer at every index (`result_array`, `run`).
-/
import proofs.«162094_g71485435674875_cont_sun_c4_294_2_alg».proof.Proof.Gen.KernelIdeal.Value
import proofs.«162094_g71485435674875_cont_sun_c4_294_2_alg».proof.Proof.BlockValue
import proofs.«162094_g71485435674875_cont_sun_c4_294_2_alg».proof.Proof.Spec
import Idealize.ShloMosaic.Lib.Pipeline.Value

noncomputable section

namespace Cert.Sage.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at each of the ten points: the two node windows and the result window sit at row block `t`
    (below ten) and at no other offset; the weight windows do not move. -/
theorem block_indices : ∀ t : Fin cfg0.N,
    win0_0.index t (0 : Fin 3) = win0_4.index t (0 : Fin 2) ∧ win0_0.index t (1 : Fin 3) = 0 ∧ win0_0.index t (2 : Fin 3) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every row block of the result is some point's. -/
theorem block_onto : ∀ b : Fin 10, ∃ t : Fin cfg0.N, win0_4.index t = ![b.val, 0] :=
  (by decide +kernel : ∀ b : Fin 10, ∃ t : Fin grid0.N, win0_4.index t = ![b.val, 0])

/-- WHAT POINT `t` WRITES BACK is block `t` of the layer of the argument arrays. -/
theorem written_back (c : Dev nD) (t : Fin cfg0.N) :
    (dats m 0 c).flushed 4 t = ((cfg0.win 4).blk t).view.read (Elt Ideal)
      (Cert.Sage.layerArr (V m c main_arg0) (V m c main_arg1) (V m c main_arg2) (V m c main_arg3)) := by
  rw [flushed4]
  unfold out0_4
  rw [View.canon_unit_zero zero2]
  simp only [View.ld_unit_zero (S := S1000x16x256) zero3, View.ld_unit_zero (S := S1000x256) zero2,
    View.ld_unit_zero (S := S256x256) zero2]
  obtain ⟨e00, e01, e02, e10, e11, e20, e21, e30, e31, e40, e41⟩ := block_indices t
  funext j
  obtain ⟨p, q, rfl⟩ : ∃ (p : Fin 1000) (q : Fin 256), j = ix2 p q := ⟨j 0, j 1, eq_ix2 j⟩
  refine (Cert.Sage.Block.stored_at (iblk m c 0 t) (iblk m c 2 t) (iblk m c 1 t) (iblk m c 3 t) p q).trans ?_
  show _ = Cert.Sage.layer (V m c main_arg0) (V m c main_arg1) (V m c main_arg2) (V m c main_arg3)
    ((((cfg0.win 4).blk t).view.emb (ix2 p q)) 0) ((((cfg0.win 4).blk t).view.emb (ix2 p q)) 1)
  unfold Cert.Sage.layer
  have hp : p.val < 1000 := p.isLt
  have hq : q.val < 256 := q.isLt
  -- the neighbour block's entry (p, d, k) is the array's entry (1000·t + p, d, k)
  have hnb : ∀ (d : Fin 16) (k : Fin 256), iblk m c 0 t (ix3 p d k)
      = V m c main_arg1 (ix3 ((((cfg0.win 4).blk t).view.emb (ix2 p q)) 0) d k) := fun d k => by
    show V m c main_arg1 (((cfg0.win 0).blk t).view.emb (ix3 p d k)) = _
    refine congrArg (V m c main_arg1) (funext fun a => Fin.ext ?_)
    have hd : d.val < 16 := d.isLt
    have hk : k.val < 256 := k.isLt
    match a with
    | ⟨0, _⟩ => show win0_0.index t (0 : Fin 3) * 1000 + 1 * p.val = win0_4.index t (0 : Fin 2) * 1000 + 1 * p.val; omega
    | ⟨1, _⟩ => show win0_0.index t (1 : Fin 3) * 16 + 1 * d.val = d.val; omega
    | ⟨2, _⟩ => show win0_0.index t (2 : Fin 3) * 256 + 1 * k.val = k.val; omega
  -- the feature block's entry (p, k) is the array's entry (1000·t + p, k)
  have hsf : ∀ k : Fin 256, iblk m c 1 t (ix2 p k)
      = V m c main_arg0 (ix2 ((((cfg0.win 4).blk t).view.emb (ix2 p q)) 0) k) := fun k => by
    show V m c main_arg0 (((cfg0.win 1).blk t).view.emb (ix2 p k)) = _
    refine congrArg (V m c main_arg0) (funext fun a => Fin.ext ?_)
    have hk : k.val < 256 := k.isLt
    match a with
    | ⟨0, _⟩ => show win0_1.index t (0 : Fin 2) * 1000 + 1 * p.val = win0_4.index t (0 : Fin 2) * 1000 + 1 * p.val; omega
    | ⟨1, _⟩ => show win0_1.index t (1 : Fin 2) * 256 + 1 * k.val = k.val; omega
  -- each weight block is the whole matrix, and the result's column is the block's column
  have hwa : ∀ k : Fin 256, iblk m c 2 t (ix2 k q)
      = V m c main_arg2 (ix2 k ((((cfg0.win 4).blk t).view.emb (ix2 p q)) 1)) := fun k => by
    show V m c main_arg2 (((cfg0.win 2).blk t).view.emb (ix2 k q)) = _
    refine congrArg (V m c main_arg2) (funext fun a => Fin.ext ?_)
    have hk : k.val < 256 := k.isLt
    match a with
    | ⟨0, _⟩ => show win0_2.index t (0 : Fin 2) * 256 + 1 * k.val = k.val; omega
    | ⟨1, _⟩ => show win0_2.index t (1 : Fin 2) * 256 + 1 * q.val = win0_4.index t (1 : Fin 2) * 256 + 1 * q.val; omega
  have hws : ∀ k : Fin 256, iblk m c 3 t (ix2 k q)
      = V m c main_arg3 (ix2 k ((((cfg0.win 4).blk t).view.emb (ix2 p q)) 1)) := fun k => by
    show V m c main_arg3 (((cfg0.win 3).blk t).view.emb (ix2 k q)) = _
    refine congrArg (V m c main_arg3) (funext fun a => Fin.ext ?_)
    have hk : k.val < 256 := k.isLt
    match a with
    | ⟨0, _⟩ => show win0_3.index t (0 : Fin 2) * 256 + 1 * k.val = k.val; omega
    | ⟨1, _⟩ => show win0_3.index t (1 : Fin 2) * 256 + 1 * q.val = win0_4.index t (1 : Fin 2) * 256 + 1 * q.val; omega
  refine congrArg (max · 0) (congrArg₂ (· + ·) (Finset.sum_congr rfl fun k _ => ?_) (Finset.sum_congr rfl fun k _ => ?_))
  · refine congrArg₂ (· * ·) (congrArg (· * Ideal.ofBits .f32 0x3D800000#32) (Finset.sum_congr rfl fun d _ => hnb d k)) (hwa k)
  · exact congrArg₂ (· * ·) (hsf k) (hws k)

/-- An index of the result array is in point `t`'s block iff each coordinate is in the block's range on its axis. -/
theorem mem_block (t : Fin cfg0.N) (i : S10000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v0).slice (win0_4.rect t)).set ↔ _
  rw [View.set_slice_whole, Rect.mem_set_unit]
  exact Iff.rfl

/-- The ten row blocks tile the result: node `n` is in the block of the point whose row block is `n / 1000`. -/
theorem covered (i : S10000x256.Idx) :
    ∃ t : Fin cfg0.N, (cfg0.win 4).flush t = true ∧ i ∈ ((cfg0.win 4).blk t).view.set := by
  have hi0 : (i 0).val < 10000 := (i 0).isLt
  have hi1 : (i 1).val < 256 := (i 1).isLt
  obtain ⟨t, ht⟩ := block_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 256 ≤ (i 1).val ∧ (i 1).val < win0_4.index t (1 : Fin 2) * 256 + 256; omega

/-- THE RESULT ARRAY after the run is the layer of the argument arrays. -/
theorem result_array (c : Dev nD) :
    (dats m 0 c).arrAt 4 cfg0.N = Cert.Sage.layerArr (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => written_back m c t) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = Cert.Sage.layerArr (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (run_blocks m ρ)

end Cert.Sage.Kernel

end
-- ==== Proof.RefLayer.lean ====
/-
  The reference computes the layer.  Read one operation at a time, its result at an index `i` is

      max( Σ_k src[i₀, k] · ws[k, i₁]  +  Σ_k ((0 + Σ_d neigh[i₀, d, k]) / 16) · wa[k, i₁] , 0 ),

  which is `Cert.Sage.layer` at `(i₀, i₁)`: the two projections are added in the other order (addition of
  extended reals commutes), the sum's initial zero is dropped, and the quotient by sixteen is the product with a
  sixteenth (`Cert.Sage.div_sixteen`).
-/
import proofs.«162094_g71485435674875_cont_sun_c4_294_2_alg».proof.Proof.Gen.ReferenceIdeal.Read
import proofs.«162094_g71485435674875_cont_sun_c4_294_2_alg».proof.Proof.Spec

noncomputable section

namespace Cert.Sage.Ref

open Cert.ReferenceIdeal Cert.ReferenceIdeal.Gen Cert.ReferenceIdeal.Read
open Idealize.ShloMosaic Idealize.ShloMosaic.TcCoe Idealize.ShloMosaic.ValueIdx

/-- Row `i₀`, column `k` of a node-feature array. -/
theorem lidx_v4 (i : S10000x256.Idx) (k : Fin 256) : lidx_main_v4 i k = (ix2 (n0 := 10000) (n1 := 256) (i 0) k) :=
  funext fun a => Fin.ext (by match a with | ⟨0, _⟩ => rfl | ⟨1, _⟩ => rfl)
theorem lidx_v3 (i : S10000x256.Idx) (k : Fin 256) : lidx_main_v3 i k = (ix2 (n0 := 10000) (n1 := 256) (i 0) k) :=
  funext fun a => Fin.ext (by match a with | ⟨0, _⟩ => rfl | ⟨1, _⟩ => rfl)
/-- Row `k`, column `i₁` of a weight matrix. -/
theorem ridx_v4 (i : S10000x256.Idx) (k : Fin 256) : ridx_main_v4 i k = (ix2 (n0 := 256) (n1 := 256) k (i 1)) :=
  funext fun a => Fin.ext (by match a with | ⟨0, _⟩ => rfl | ⟨1, _⟩ => rfl)
theorem ridx_v3 (i : S10000x256.Idx) (k : Fin 256) : ridx_main_v3 i k = (ix2 (n0 := 256) (n1 := 256) k (i 1)) :=
  funext fun a => Fin.ext (by match a with | ⟨0, _⟩ => rfl | ⟨1, _⟩ => rfl)
/-- Neighbour `d` of node `j₀`, feature `j₁`. -/
theorem idx_v0 (j : S10000x256.Idx) (d : Fin 16) :
    idx_main_v0 j d = (ix3 (n0 := 10000) (n1 := 16) (n2 := 256) (j 0) d (j 1)) :=
  funext fun a => Fin.ext (by match a with | ⟨0, _⟩ => rfl | ⟨1, _⟩ => rfl | ⟨2, _⟩ => rfl)

/-- The reference's result stage, at every index, is the layer. -/
theorem result_apply (x0 : (⟨S10000x256, .f32⟩ : BufTy).Contents (Elt Ideal)) (x1 : (⟨S10000x16x256, .f32⟩ : BufTy).Contents (Elt Ideal))
    (x2 x3 : (⟨S256x256, .f32⟩ : BufTy).Contents (Elt Ideal)) (i : S10000x256.Idx) :
    val_main_v6 (F := Ideal) x0 x1 x2 x3 i = Cert.Sage.layer x0 x1 x2 x3 (i 0) (i 1) := by
  rw [val_main_v6_apply, val_main_v5_apply, val_main_v4_apply, val_main_v3_apply, val_main_call0_v0_apply,
    val_main_call0_cst_apply]
  simp only [val_main_v2_apply, val_main_v0_apply, val_main_v1_apply, val_main_cst_0_apply, val_main_cst_apply,
    lidx_v4, lidx_v3, ridx_v4, ridx_v3, idx_v0, Ideal.ofBits_def, Ideal.hostDivf_def, Ideal.addf_def,
    Ideal.maximumf_def, Ideal.ofBits_zero_f32, zero_add, Cert.Sage.div_sixteen]
  rw [add_comm]
  unfold Cert.Sage.layer
  rfl

/-- So the reference's result array is the layer's. -/
theorem result_eq (x0 : (⟨S10000x256, .f32⟩ : BufTy).Contents (Elt Ideal)) (x1 : (⟨S10000x16x256, .f32⟩ : BufTy).Contents (Elt Ideal))
    (x2 x3 : (⟨S256x256, .f32⟩ : BufTy).Contents (Elt Ideal)) :
    val_main_v6 (F := Ideal) x0 x1 x2 x3 = Cert.Sage.layerArr x0 x1 x2 x3 :=
  funext fun i => result_apply x0 x1 x2 x3 i

end Cert.Sage.Ref

end
-- ==== Proof.lean ====
/-
  The certificate of a GraphSAGE-style layer: for each of ten thousand nodes, the mean of its sixteen sampled
  neighbours' feature rows is projected by one weight matrix, the node's own feature row by another, the two are
  added and clamped at zero.  The kernel does this a thousand nodes per grid point, with the mean taken as the
  neighbour sum times the exact dyadic 1/16; the reference takes the mean as the sum divided by 16 and adds the
  two projections in the other order.  On the extended reals these are one function (`Cert.Sage.layerArr`):
  division by sixteen is multiplication by a sixteenth at every extended real, addition commutes, and a lane
  sum, a host sum, a matrix-unit product into a zero accumulator and a host `dot_general` are all plain finite
  sums.  No step needs the inputs finite.

  The three frames are the generated ones (the reference's is its generated run with the result dropped); the
  idealization rewrote nothing, so `preserves` is `True`; `algebraic` sets the kernel's run
  (`Cert.Sage.Kernel.run`) beside the reference's generated run, whose result term is the layer
  (`Cert.Sage.Ref.result_eq`).
-/
import proofs.«162094_g71485435674875_cont_sun_c4_294_2_alg».proof.Defs
import proofs.«162094_g71485435674875_cont_sun_c4_294_2_alg».proof.Proof.Gen.Kernel
import proofs.«162094_g71485435674875_cont_sun_c4_294_2_alg».proof.Proof.Gen.Kernel.Skeleton
import proofs.«162094_g71485435674875_cont_sun_c4_294_2_alg».proof.Proof.Gen.Kernel.Launch
import proofs.«162094_g71485435674875_cont_sun_c4_294_2_alg».proof.Proof.Gen.Kernel.Points
import proofs.«162094_g71485435674875_cont_sun_c4_294_2_alg».proof.Proof.Gen.Kernel.Frame
import proofs.«162094_g71485435674875_cont_sun_c4_294_2_alg».proof.Proof.Gen.KernelIdeal
import proofs.«162094_g71485435674875_cont_sun_c4_294_2_alg».proof.Proof.Gen.KernelIdeal.Skeleton
import proofs.«162094_g71485435674875_cont_sun_c4_294_2_alg».proof.Proof.Gen.KernelIdeal.Launch
import proofs.«162094_g71485435674875_cont_sun_c4_294_2_alg».proof.Proof.Gen.KernelIdeal.Points
import proofs.«162094_g71485435674875_cont_sun_c4_294_2_alg».proof.Proof.Gen.KernelIdeal.Frame
import proofs.«162094_g71485435674875_cont_sun_c4_294_2_alg».proof.Proof.Gen.ReferenceIdeal
import proofs.«162094_g71485435674875_cont_sun_c4_294_2_alg».proof.Proof.Gen.Pre_finite_inputs
import proofs.«162094_g71485435674875_cont_sun_c4_294_2_alg».proof.Proof.Gen.KernelIdeal.Value
import proofs.«162094_g71485435674875_cont_sun_c4_294_2_alg».proof.Proof.Gen.ReferenceIdeal.Run
import proofs.«162094_g71485435674875_cont_sun_c4_294_2_alg».proof.Proof.Gen.ReferenceIdeal.Read
import proofs.«162094_g71485435674875_cont_sun_c4_294_2_alg».proof.Proof.KernelLayer
import proofs.«162094_g71485435674875_cont_sun_c4_294_2_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the layer of the (agreeing) argument arrays in their result. -/
theorem algebraic : Cert.algebraic_KernelIdeal_ReferenceIdeal := by
  intro m ρ m' ρ' _ hagree
  refine ⟨fun c => Cert.Sage.layerArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Sage.Ref.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
